-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x768 : Shape := ⟨3, ![2, 4096, 768]⟩
abbrev S768x768 : Shape := ⟨2, ![768, 768]⟩
abbrev S768 : Shape := ⟨1, ![768]⟩
abbrev S_ : Shape := ⟨0, ![]⟩

class Facts : Prop where
  bcast_S_S2x4096x768 : S_.BroadcastsInDim S2x4096x768 (![] : Fin 0 → Fin S2x4096x768.rank)
  reducesTo_S2x4096x768_S_d0_1_2 : S2x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S2x4096x768 .f32) (main_arg1 : FVec F S768x768 .f32) (main_arg2 : FVec F S768 .f32) : IVec S_ 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_c : IVec S_ 1 := constantI S_ 1 1#1
  let main_v3 : IVec S_ 1 := (fun x v => Host.reduce IntOp.andi x v reducesTo_S2x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S2x4096x768 : Shape := ⟨3, ![2, 4096, 768]⟩
abbrev S768x768 : Shape := ⟨2, ![768, 768]⟩
abbrev S768 : Shape := ⟨1, ![768]⟩
abbrev S8192x768 : Shape := ⟨2, ![8192, 768]⟩
abbrev S1x768 : Shape := ⟨2, ![1, 768]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768, .f32⟩
  | .hbm, ⟨3, _⟩ => ⟨S8192x768, .f32⟩
  | .hbm, ⟨4, _⟩ => ⟨S1x768, .f32⟩
  | .hbm, ⟨5, _⟩ => ⟨S8192x768, .f32⟩
  | .hbm, ⟨6, _⟩ => ⟨S2x4096x768, .f32⟩
  | .local _ .vmem, ⟨0, _⟩ => ⟨S2048x768, .f32⟩
  | .local _ .vmem, ⟨1, _⟩ => ⟨S2048x768, .f32⟩
  | .local _ .vmem, ⟨2, _⟩ => ⟨S768x768, .f32⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x4096x768_S8192x768 : S2x4096x768.ShapeCasts S8192x768
  shapeCasts_S768_S1x768 : S768.ShapeCasts S1x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  shapeCasts_S8192x768_S2x4096x768 : S8192x768.ShapeCasts S2x4096x768
  dot_S2048x768_S768x768_S2048x768_1_1_0_0_n_n_wf : DotDims.WF S2048x768 S768x768 S2048x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S8192x768.size a
  hwx0_3 : ∀ i : grid0.Coords, EltTy.bits .f32 = 32 ∨ (Rect.block (s := S8192x768) S2048x768.size (cc0_transform_3 i) (hinb0_3 i)).WholeWords (EltTy.packing .f32)

variable [Facts₀]

def dot_S2048x768_S768x768_S2048x768_1_1_0_0_n_n : DotDims S2048x768 S768x768 S2048x768 where
  lhsContracting := [1]
  rhsContracting := [1]
  lhsNonContracting := [0]
  rhsNonContracting := [0]
  lhsBatch := []
  rhsBatch := []
  wf := dot_S2048x768_S768x768_S2048x768_1_1_0_0_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x768 : Shape := ⟨3, ![2, 4096, 768]⟩
abbrev S768x768 : Shape := ⟨2, ![768, 768]⟩
abbrev S768 : Shape := ⟨1, ![768]⟩
abbrev S1x1x768 : Shape := ⟨3, ![1, 1, 768]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x768, .f32⟩
  | .hbm, ⟨2, _⟩ => ⟨S768, .f32⟩
  | .hbm, ⟨3, _⟩ => ⟨S2x4096x768, .f32⟩
  | .hbm, ⟨4, _⟩ => ⟨S1x1x768, .f32⟩
  | .hbm, ⟨5, _⟩ => ⟨S2x4096x768, .f32⟩
  | .hbm, ⟨6, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2x4096x768_0_1_2 : S1x1x768.BroadcastsInDim S2x4096x768 (![0, 1, 2] : Fin 3 → Fin S2x4096x768.rank)
  dot_S2x4096x768_S768x768_S2x4096x768_2_1_01_0_n_n_wf : DotDims.WF S2x4096x768 S768x768 S2x4096x768 [2] [1] [0, 1] [0] [] []

variable [Facts₀]

def dot_S2x4096x768_S768x768_S2x4096x768_2_1_01_0_n_n : DotDims S2x4096x768 S768x768 S2x4096x768 where
  lhsContracting := [2]
  rhsContracting := [1]
  lhsNonContracting := [0, 1]
  rhsNonContracting := [0]
  lhsBatch := []
  rhsBatch := []
  wf := dot_S2x4096x768_S768x768_S2x4096x768_2_1_01_0_n_n_wf

class Facts : Prop extends Facts₀ where

variable [Facts]
-- ==== Proof.Block.lean ====
/-
  The kernel body's stored value, read one entry at a time at the ideal instance.

  The body loads a block `x` of 2048 rows of the flattened activations, the whole 768 × 768 weight `w` and
  the bias row `b` (1 × 768), multiplies `x` against `w` contracting the second axis of both into a zero
  accumulator, and adds the bias broadcast down the rows.  Over the extended reals the matrix product into a
  zero accumulator is the plain sum of products, so entry (p, q) of what is stored is
      Σ_k x[p, k] · w[q, k]  +  b[0, q].
-/
import proofs.«103005_g2078764171543_cont_8to1_1018_15_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.ValueIdx
open scoped BigOperators

/-- The dimension numbers of the body's matrix product: rows of the left operand against rows of the right,
    the second axis of each contracted. -/
abbrev dims := dot_S2048x768_S768x768_S2048x768_1_1_0_0_n_n

/-- A non-contracted axis of the left operand carries the output's row coordinate. -/
theorem lhs_row (j : S2048x768.Idx) (c : dims.contr.Idx) : (dims.lhsIdx j c 0).val = (j 0).val := by
  unfold DotDims.lhsIdx
  rw [dif_neg (show ¬(0 : Fin S2048x768.rank) ∈ dims.lhsBatch by decide),
    dif_pos (show (0 : Fin S2048x768.rank) ∈ dims.lhsNonContracting by decide)]
  rfl

/-- The non-contracted axis of the right operand carries the output's column coordinate. -/
theorem rhs_row (j : S2048x768.Idx) (c : dims.contr.Idx) : (dims.rhsIdx j c 0).val = (j 1).val := by
  unfold DotDims.rhsIdx
  rw [dif_neg (show ¬(0 : Fin S768x768.rank) ∈ dims.rhsBatch by decide),
    dif_pos (show (0 : Fin S768x768.rank) ∈ dims.rhsNonContracting by decide)]
  rfl

/-- The left operand is read at the output's row and the contraction index. -/
theorem lhs_at (p : Fin 2048) (q : Fin 768) (k : Fin 768) :
    dims.lhsIdx (ix2 p q) ((contrEquiv1 dims 768 rfl rfl).symm k) = ix2 p k := by
  have hk := contrEquiv1_symm_val dims 768 rfl rfl k
  funext a
  apply Fin.ext
  match a with
  | ⟨0, _⟩ => exact lhs_row _ _
  | ⟨1, _⟩ => exact (dims.lhsIdx_val_of_single rfl (ix2 p q) _).trans hk

/-- The right operand is read at the output's column (a row of the weight) and the contraction index. -/
theorem rhs_at (p : Fin 2048) (q : Fin 768) (k : Fin 768) :
    dims.rhsIdx (ix2 p q) ((contrEquiv1 dims 768 rfl rfl).symm k) = ix2 q k := by
  have hk := contrEquiv1_symm_val dims 768 rfl rfl k
  funext a
  apply Fin.ext
  match a with
  | ⟨0, _⟩ => exact rhs_row _ _
  | ⟨1, _⟩ => exact (dims.rhsIdx_val_of_single rfl (ix2 p q) _).trans hk

/-- The product into the zero accumulator, at entry (p, q): the sum over the 768 contraction positions. -/
theorem product_at (x : FVec Ideal S2048x768 .f32) (w : FVec Ideal S768x768 .f32) (p : Fin 2048) (q : Fin 768) :
    FloatOps.matmul dims none x w (constant S2048x768 .f32 0x00000000#32) (ix2 p q)
      = ∑ k : Fin 768, x (ix2 p k) * w (ix2 q k) := by
  rw [Ideal.matmul_constant_zero_apply, ← Equiv.sum_comp (contrEquiv1 dims 768 rfl rfl).symm]
  refine Finset.sum_congr rfl fun k _ => ?_
  rw [lhs_at, rhs_at]

/-- The bias row broadcast down the 2048 rows, at entry (p, q): the bias at column q. -/
theorem bias_at (b : FVec Ideal S1x768 .f32) (p : Fin 2048) (q : Fin 768) :
    broadcastTo S2048x768 b Facts₀.broadcasts_S1x768_S2048x768 (ix2 p q) = b (ix2 (0 : Fin 1) q) :=
  broadcastTo_apply b _ (ix2 p q) (ix2 (0 : Fin 1) q) (fun a => match a with
    | ⟨0, _⟩ => by show 0 = if (1 : Nat) = 1 then 0 else _; rw [if_pos rfl]
    | ⟨1, _⟩ => by show q.val = if (768 : Nat) = 1 then 0 else q.val; rw [if_neg (by decide)])

/-- Entry (p, q) of the value the body stores: the row of `x` against the row of `w`, plus the bias. -/
theorem stored_at (x : Vec Ideal S2048x768 .f32) (w : Vec Ideal S768x768 .f32) (b : Vec Ideal S1x768 .f32)
    (p : Fin 2048) (q : Fin 768) :
    k0_pay1 (F := Ideal) x w b (ix2 p q) = (∑ k : Fin 768, x (ix2 p k) * w (ix2 q k)) + b (ix2 (0 : Fin 1) q) := by
  unfold k0_pay1
  rw [shapeCast_self, shapeCast_self]
  refine (addf_apply _ _ (ix2 p q)).trans ?_
  rw [bias_at]
  exact congrArg (· + b (ix2 (0 : Fin 1) q)) (product_at x w p q)

end Cert.KernelIdeal.Linear

end
-- ==== Proof.Region.lean ====
/-
  What the region leaves in its output array: the flattened linear layer, row by row.

  The grid has four points; point `t` reads rows 2048·t … 2048·t + 2047 of the flattened activations (8192 × 768),
  the whole weight and the whole bias row, and writes back the same rows of the output.  Each entry the body
  stores depends on ONE row of its activation block and ONE row of the weight, so every written block is the
  restriction of a single function of the three arrays,
      out[r, q] = Σ_k a[r, k] · w[q, k] + b[0, q],
  and since the four row blocks tile the 8192 rows the whole array ends equal to that function.
-/
import proofs.«103005_g2078764171543_cont_8to1_1018_15_alg».proof.Proof.Gen.KernelIdeal.Frame
import proofs.«103005_g2078764171543_cont_8to1_1018_15_alg».proof.Proof.Block

noncomputable section

namespace Cert.KernelIdeal.Linear

open Cert.KernelIdeal Cert.KernelIdeal.Gen Idealize.ShloMosaic Idealize.ShloMosaic.TcCoe Idealize.ShloMosaic.ValueIdx
open Idealize.SL.Sem
open scoped BigOperators

variable (m : (ℓ : Loc nD τ sig) → Buf (Elt Ideal) ℓ)

/-- The flattened linear layer: row `r` of the activations against row `q` of the weight, plus the bias at `q`. -/
def rowsOut (a : FVec Ideal S8192x768 .f32) (w : FVec Ideal S768x768 .f32) (b : FVec Ideal S1x768 .f32) :
    FVec Ideal S8192x768 .f32 :=
  fun i => (∑ k : Fin 768, a (ix2 (⟨(i 0).val, (i 0).isLt⟩ : Fin 8192) k) * w (ix2 (⟨(i 1).val, (i 1).isLt⟩ : Fin 768) k))
    + b (ix2 (0 : Fin 1) (⟨(i 1).val, (i 1).isLt⟩ : Fin 768))

/-- The same at an index whose coordinates are known. -/
theorem rowsOut_at (a : FVec Ideal S8192x768 .f32) (w : FVec Ideal S768x768 .f32) (b : FVec Ideal S1x768 .f32)
    (i : S8192x768.Idx) (r : Fin 8192) (q : Fin 768) (h0 : (i 0).val = r.val) (h1 : (i 1).val = q.val) :
    rowsOut a w b i = (∑ k : Fin 768, a (ix2 r k) * w (ix2 q k)) + b (ix2 (0 : Fin 1) q) := by
  have e0 : (⟨(i 0).val, (i 0).isLt⟩ : Fin 8192) = r := Fin.ext h0
  have e1 : (⟨(i 1).val, (i 1).isLt⟩ : Fin 768) = q := Fin.ext h1
  unfold rowsOut
  rw [e0, e1]

theorem zero_offsets : (![0, 0] : Fin 2 → Nat) = fun _ => 0 := funext fun a => by fin_cases a <;> rfl

/-- The printed index maps over the four points: the activation and output blocks are the point's row block,
    the weight and the bias are always block zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 4 := lt_of_lt_of_eq t.isLt N_0

/-- Row `p` of point `t`'s block is row 2048·t + p of the array. -/
theorem row_lt (t : Fin cfg0.N) (p : Fin 2048) : t.val * 2048 + p.val < 8192 := by
  have h := point_lt t
  have hp := p.isLt
  omega

/-- The activation block at point `t`: rows 2048·t … of the flattened activations. -/
theorem rows_block (c : Dev nD) (t : Fin cfg0.N) (p : Fin 2048) (k : Fin 768) :
    iblk m c 0 t (ix2 p k) = V m c main_v0 (ix2 (⟨t.val * 2048 + p.val, row_lt t p⟩ : Fin 8192) k) := by
  obtain ⟨e0, e1, -, -, -, -, -, -⟩ := block_indices t
  show V m c main_v0 (((cfg0.win 0).blk t).view.emb (ix2 p k)) = _
  refine congrArg (V m c main_v0) (funext fun a => Fin.ext ?_)
  match a with
  | ⟨0, _⟩ => show win0_0.index t (0 : Fin 2) * 2048 + 1 * p.val = t.val * 2048 + p.val; omega
  | ⟨1, _⟩ => show win0_0.index t (1 : Fin 2) * 768 + 1 * k.val = k.val; omega

/-- The weight block is the whole weight. -/
theorem weight_block (c : Dev nD) (t : Fin cfg0.N) (q : Fin 768) (k : Fin 768) :
    iblk m c 1 t (ix2 q k) = V m c main_arg1 (ix2 q k) := by
  obtain ⟨-, -, e2, e3, -, -, -, -⟩ := block_indices t
  show V m c main_arg1 (((cfg0.win 1).blk t).view.emb (ix2 q k)) = _
  refine congrArg (V m c main_arg1) (funext fun a => Fin.ext ?_)
  match a with
  | ⟨0, _⟩ => show win0_1.index t (0 : Fin 2) * 768 + 1 * q.val = q.val; omega
  | ⟨1, _⟩ => show win0_1.index t (1 : Fin 2) * 768 + 1 * k.val = k.val; omega

/-- The bias block is the whole bias row. -/
theorem bias_block (c : Dev nD) (t : Fin cfg0.N) (q : Fin 768) :
    iblk m c 2 t (ix2 (0 : Fin 1) q) = V m c main_v1 (ix2 (0 : Fin 1) q) := by
  obtain ⟨-, -, -, -, e4, e5, -, -⟩ := block_indices t
  show V m c main_v1 (((cfg0.win 2).blk t).view.emb (ix2 (0 : Fin 1) q)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 768 + 1 * q.val = q.val; omega

/-- What point `t` writes back is block `t` of the flattened linear layer of the arrays as the region finds them. -/
theorem written_block (c : Dev nD) (t : Fin cfg0.N) :
    (dats m 0 c).flushed 3 t
      = ((cfg0.win 3).blk t).view.read (Elt Ideal) (rowsOut (V m c main_v0) (V m c main_arg1) (V m c main_v1)) := by
  show (cfg0.win 3).cut (grid0.coords t) ((dats m 0 c).after 3 t) = _
  rw [after0_3]
  unfold out0_3
  rw [View.canon_unit_zero zero_offsets]
  simp only [View.ld_unit_zero (S := S2048x768) zero_offsets, View.ld_unit_zero (S := S768x768) zero_offsets,
    View.ld_unit_zero (S := S1x768) zero_offsets]
  funext j
  obtain ⟨p, q, rfl⟩ : ∃ (p : Fin 2048) (q : Fin 768), j = ix2 p q := ⟨j 0, j 1, eq_ix2 j⟩
  obtain ⟨-, -, -, -, -, -, e6, e7⟩ := block_indices t
  show k0_pay1 (iblk m c 0 t) (iblk m c 1 t) (iblk m c 2 t) (ix2 p q)
    = rowsOut (V m c main_v0) (V m c main_arg1) (V m c main_v1) (((cfg0.win 3).blk t).view.emb (ix2 p q))
  refine (stored_at (iblk m c 0 t) (iblk m c 1 t) (iblk m c 2 t) p q).trans ?_
  refine Eq.trans ?_ (rowsOut_at (V m c main_v0) (V m c main_arg1) (V m c main_v1) _
    (⟨t.val * 2048 + p.val, row_lt t p⟩ : Fin 8192) q ?_ ?_).symm
  · rw [bias_block m c t q]
    refine congrArg (· + V m c main_v1 (ix2 (0 : Fin 1) q)) (Finset.sum_congr rfl fun k _ => ?_)
    rw [rows_block m c t p k, weight_block m c t q k]
  · show win0_3.index t (0 : Fin 2) * 2048 + 1 * p.val = t.val * 2048 + p.val; omega
  · show win0_3.index t (1 : Fin 2) * 768 + 1 * q.val = q.val; omega

/-- An index of the output array is in point `t`'s block iff each coordinate is in the block's range. -/
theorem mem_block (t : Fin cfg0.N) (i : S8192x768.Idx) :
    i ∈ ((cfg0.win 3).blk t).view.set ↔ ∀ a : Fin 2, win0_3.index t a * S2048x768.size a ≤ (i a).val
      ∧ (i a).val < win0_3.index t a * S2048x768.size a + S2048x768.size a := by
  show i ∈ ((View.whole main_v2).slice (win0_3.rect t)).set ↔ _
  rw [View.set_slice_whole, Rect.mem_set_unit]
  exact Iff.rfl

/-- Every row lies in the block of the point numbered by its quotient by 2048: the four blocks tile the array. -/
theorem rows_tiled (i : S8192x768.Idx) :
    ∃ t : Fin cfg0.N, (cfg0.win 3).flush t = true ∧ i ∈ ((cfg0.win 3).blk t).view.set := by
  have hi0 : (i 0).val < 8192 := (i 0).isLt
  have hi1 : (i 1).val < 768 := (i 1).isLt
  have ht : (i 0).val / 2048 < cfg0.N := by rw [show cfg0.N = 4 from N_0]; omega
  obtain ⟨-, -, -, -, -, -, e6, e7⟩ := block_indices ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e6]
    show (i 0).val / 2048 * 2048 ≤ (i 0).val ∧ (i 0).val < (i 0).val / 2048 * 2048 + 2048
    omega
  | ⟨1, _⟩ =>
    show win0_3.index ⟨(i 0).val / 2048, ht⟩ (1 : Fin 2) * 768 ≤ (i 1).val
      ∧ (i 1).val < win0_3.index ⟨(i 0).val / 2048, ht⟩ (1 : Fin 2) * 768 + 768
    omega

/-- The output array after the region: the flattened linear layer of the arrays as the region finds them. -/
theorem region_result (c : Dev nD) :
    (dats m 0 c).arrAt 3 cfg0.N = rowsOut (V m c main_v0) (V m c main_arg1) (V m c main_v1) :=
  (dats m 0 c).arrAt_eq_of_cover 3 (rowsOut (V m c main_v0) (V m c main_arg1) (V m c main_v1))
    (fun t _ => written_block m c t) rows_tiled

end Cert.KernelIdeal.Linear

end
-- ==== Proof.Spec.lean ====
/-
  The linear layer as one function of its three arguments.

  For activations `x` (2 × 4096 × 768), a weight `w` (768 × 768, one row per output feature) and a bias `b` (768),
      out[s, r, q] = Σ_k x[s, r, k] · w[q, k] + b[q]
  over the extended reals.  Both programs are shown to compute this function.
-/
import Idealize.ShloMosaic.PureOps.Ideal
import Idealize.ShloMosaic.Lib.ValueIdx

noncomputable section

namespace Cert.Linear

open Idealize.ShloMosaic Idealize.ShloMosaic.ValueIdx
open scoped BigOperators

abbrev Acts : Shape := ⟨3, ![2, 4096, 768]⟩
abbrev Weight : Shape := ⟨2, ![768, 768]⟩
abbrev Bias : Shape := ⟨1, ![768]⟩

/-- Entry (s, r, q): row (s, r) of the activations against row q of the weight, plus the bias at q. -/
def linearOut (x : FVec Ideal Acts .f32) (w : FVec Ideal Weight .f32) (b : FVec Ideal Bias .f32) : FVec Ideal Acts .f32 :=
  fun i => (∑ k : Fin 768, x (ix3 (⟨(i 0).val, (i 0).isLt⟩ : Fin 2) (⟨(i 1).val, (i 1).isLt⟩ : Fin 4096) k)
      * w (ix2 (⟨(i 2).val, (i 2).isLt⟩ : Fin 768) k))
    + b (ix1 (⟨(i 2).val, (i 2).isLt⟩ : Fin 768))

/-- The same at an index given by its coordinates. -/
theorem linearOut_at (x : FVec Ideal Acts .f32) (w : FVec Ideal Weight .f32) (b : FVec Ideal Bias .f32)
    (s : Fin 2) (r : Fin 4096) (q : Fin 768) :
    linearOut x w b (ix3 s r q) = (∑ k : Fin 768, x (ix3 s r k) * w (ix2 q k)) + b (ix1 q) := rfl

end Cert.Linear

end
-- ==== Proof.Program.lean ====
/-
  The idealized kernel program computes the linear layer.

  Around the region the program only changes layouts: before it, the activations (2 × 4096 × 768) are flattened
  to 8192 × 768 and the bias (768) becomes a row (1 × 768); after it, the region's 8192 × 768 output is folded
  back to 2 × 4096 × 768.  A reshape keeps the row-major position, so flattened row s·4096 + r is row (s, r),
  and the region's result (row r' of the flattened activations against row q of the weight, plus the bias at q)
  read at (s, r, q) is Σ_k x[s, r, k] · w[q, k] + b[q].
-/
import proofs.«103005_g2078764171543_cont_8to1_1018_15_alg».proof.Proof.Region
import proofs.«103005_g2078764171543_cont_8to1_1018_15_alg».proof.Proof.Spec
import Idealize.ShloMosaic.Lib.StableHlo.Run

noncomputable section

namespace Cert.KernelIdeal.Linear

open Cert.KernelIdeal Cert.KernelIdeal.Gen Cert.Linear Idealize.ShloMosaic Idealize.ShloMosaic.TcCoe
open Idealize.ShloMosaic.ValueIdx Idealize.SL.Sem Idealize.ShloMosaic.StableHlo
open scoped BigOperators

/-! ## The layout changes, as one statement about functions -/

/-- Folding back the flattened linear layer of the flattened activations and the bias row gives the linear layer. -/
theorem unflatten (x : FVec Ideal S2x4096x768 .f32) (w : FVec Ideal S768x768 .f32) (b : FVec Ideal S768 .f32) :
    shapeCast S2x4096x768
        (rowsOut (shapeCast S8192x768 x Facts₀.shapeCasts_S2x4096x768_S8192x768) w
          (shapeCast S1x768 b Facts₀.shapeCasts_S768_S1x768))
        Facts₀.shapeCasts_S8192x768_S2x4096x768
      = linearOut x w b := by
  funext i
  obtain ⟨s, r, q, rfl⟩ : ∃ (s : Fin 2) (r : Fin 4096) (q : Fin 768), i = ix3 s r q := ⟨i 0, i 1, i 2, eq_ix3 i⟩
  have hrow : s.val * 4096 + r.val < 8192 := by
    have hs := s.isLt
    have hr := r.isLt
    omega
  rw [linearOut_at]
  refine (shapeCast_apply _ _ (ix3 s r q) (ix2 (⟨s.val * 4096 + r.val, hrow⟩ : Fin 8192) q) ?_).trans ?_
  · rw [Shape.rowMajor_val_two, Shape.rowMajor_val_three]; rfl
  rw [rowsOut_at _ _ _ _ (⟨s.val * 4096 + r.val, hrow⟩ : Fin 8192) q rfl rfl]
  have ex : ∀ k : Fin 768,
      shapeCast S8192x768 x Facts₀.shapeCasts_S2x4096x768_S8192x768 (ix2 (⟨s.val * 4096 + r.val, hrow⟩ : Fin 8192) k)
        = x (ix3 s r k) := fun k =>
    shapeCast_apply x _ _ (ix3 s r k) (by rw [Shape.rowMajor_val_two, Shape.rowMajor_val_three]; rfl)
  have eb : shapeCast S1x768 b Facts₀.shapeCasts_S768_S1x768 (ix2 (0 : Fin 1) q) = b (ix1 q) :=
    shapeCast_apply b _ _ (ix1 q) (by
      rw [Shape.rowMajor_val_one, Shape.rowMajor_val_two]
      show q.val = 0 * 768 + q.val
      omega)
  simp only [ex, eb]

/-! ## The program around the region -/

variable (m : (ℓ : Loc nD τ sig) → Buf (Elt Ideal) ℓ)

/-- The region finds the activations flattened. -/
theorem flat_rows (c : Dev nD) :
    (V m c main_v0 : FVec Ideal S8192x768 .f32)
      = shapeCast S8192x768 (m ((c : Thread nD τ).loc main_arg0)) Facts₀.shapeCasts_S2x4096x768_S8192x768 := by
  show StableHlo.after hostOps0 (fun b => m (c, b)) (Proc.devRef .tc main_v0) = _
  after_results
  rfl

/-- The region finds the bias as a row. -/
theorem bias_row (c : Dev nD) :
    (V m c main_v1 : FVec Ideal S1x768 .f32)
      = shapeCast S1x768 (m ((c : Thread nD τ).loc main_arg2)) Facts₀.shapeCasts_S768_S1x768 := by
  show StableHlo.after hostOps0 (fun b => m (c, b)) (Proc.devRef .tc main_v1) = _
  after_results
  rfl

/-- The program's result is the region's output array folded back. -/
theorem folded_back (c : Dev nD) :
    Pipeline.afterTail₀ cfgs (dats m) 0 (V0 m) [hostOps1] c main_v3
      = shapeCast S2x4096x768 ((dats m 0 c).arrAt 3 cfg0.N) Facts₀.shapeCasts_S8192x768_S2x4096x768 := by
  have e : Pipeline.withArrays (cfgs 0).spec c (V0 m c) (fun w => (dats m 0 c).arrAt w (cfgs 0).N)
      (Proc.devRef .tc main_v2) = (dats m 0 c).arrAt 3 cfg0.N :=
    Pipeline.withArrays_arr spec0 launch0.win.arr_inj c _ _ 3
  unfold Pipeline.afterTail₀
  show StableHlo.after hostOps1 _ (Proc.devRef .tc main_v3) = _
  after_results
  rw [e]
  rfl

/-- The program's result, as a function of the launch contents of its three arguments, is the linear layer. -/
theorem result_value (c : Dev nD) :
    Pipeline.afterTail₀ cfgs (dats m) 0 (V0 m) [hostOps1] c main_v3
      = linearOut (m ((c : Thread nD τ).loc main_arg0)) (m ((c : Thread nD τ).loc main_arg1))
          (m ((c : Thread nD τ).loc main_arg2)) := by
  rw [folded_back, region_result, flat_rows, bias_row, V_main_arg1]
  exact unflatten _ _ _

/-- Every weakly fair execution of the idealized kernel program terminates with its result at the linear layer of
    its arguments, and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v3)
          = linearOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Linear

end
-- ==== Proof.Reference.lean ====
/-
  The reference program computes the linear layer.

  Its four host operations are a contraction of the activations' last axis with the weight's second axis, the bias
  broadcast first to 1 × 1 × 768 and then to the full shape, and a sum.  Read at an index (s, r, q) these give
  Σ_k x[s, r, k] · w[q, k] + b[q].
-/
import proofs.«103005_g2078764171543_cont_8to1_1018_15_alg».proof.Proof.Gen.ReferenceIdeal.Read
import proofs.«103005_g2078764171543_cont_8to1_1018_15_alg».proof.Proof.Spec

noncomputable section

namespace Cert.ReferenceIdeal.Linear

open Cert.ReferenceIdeal Cert.ReferenceIdeal.Read Cert.Linear Idealize.ShloMosaic Idealize.ShloMosaic.ValueIdx
open scoped BigOperators

/-- The reference's result, as a function of its three arguments, is the linear layer. -/
theorem reference_is_linear (x : (⟨S2x4096x768, .f32⟩ : BufTy).Contents (Elt Ideal))
    (w : (⟨S768x768, .f32⟩ : BufTy).Contents (Elt Ideal)) (b : (⟨S768, .f32⟩ : BufTy).Contents (Elt Ideal)) :
    val_main_v3 (F := Ideal) x w b = linearOut x w b := by
  funext i
  obtain ⟨s, r, q, rfl⟩ : ∃ (s : Fin 2) (r : Fin 4096) (q : Fin 768), i = ix3 s r q := ⟨i 0, i 1, i 2, eq_ix3 i⟩
  rw [val_main_v3_apply, val_main_v0_apply, val_main_v2_apply, val_main_v1_apply, linearOut_at]
  have el : ∀ k : Fin 768, lidx_main_v0 (ix3 s r q) k = ix3 s r k := fun k => funext fun a => by
    match a with
    | ⟨0, _⟩ => rfl
    | ⟨1, _⟩ => rfl
    | ⟨2, _⟩ => rfl
  have er : ∀ k : Fin 768, ridx_main_v0 (ix3 s r q) k = ix2 q k := fun k => funext fun a => by
    match a with
    | ⟨0, _⟩ => rfl
    | ⟨1, _⟩ => rfl
  have eb : idx_main_v1 (idx_main_v2 (ix3 s r q)) = ix1 q := funext fun a => by
    match a with
    | ⟨0, _⟩ => rfl
  simp only [el, er, eb]
  rfl

end Cert.ReferenceIdeal.Linear

end
-- ==== Proof.lean ====
/-
  A dense linear layer, out = x · Wᵀ + b, as a row-tiled kernel against its einsum reference.

  The kernel flattens the activations x (2 × 4096 × 768) to 8192 rows, and on a grid of four points multiplies a
  block of 2048 rows against the whole weight W (768 × 768, contracting the second axis of both) into a zero
  accumulator, adds the bias row, and writes the block of rows back; the result is folded back to 2 × 4096 × 768.
  The reference contracts x's last axis with W's second axis and adds the bias broadcast to the full shape.

  Over the extended reals a matrix product into a zero accumulator and a host contraction are the same plain sum
  of products over the 768 contraction positions, in the same order, and a reshape keeps row-major positions; so
  both programs end with
      out[s, r, q] = Σ_k x[s, r, k] · W[q, k] + b[q],
  (`Cert.Linear.linearOut`), with no appeal to the finiteness of the inputs: only the definitions of the
  operations and the equality of the two index arrangements are used.

  The three frames are the generated frame runs (the reference's is its run with the result dropped); the
  idealization rewrote nothing, so the kernel is its own idealization read over the extended reals.
-/
import proofs.«103005_g2078764171543_cont_8to1_1018_15_alg».proof.Defs
import proofs.«103005_g2078764171543_cont_8to1_1018_15_alg».proof.Proof.Gen.Kernel
import proofs.«103005_g2078764171543_cont_8to1_1018_15_alg».proof.Proof.Gen.Kernel.Skeleton
import proofs.«103005_g2078764171543_cont_8to1_1018_15_alg».proof.Proof.Gen.Kernel.Launch
import proofs.«103005_g2078764171543_cont_8to1_1018_15_alg».proof.Proof.Gen.Kernel.Points
import proofs.«103005_g2078764171543_cont_8to1_1018_15_alg».proof.Proof.Gen.Kernel.Frame
import proofs.«103005_g2078764171543_cont_8to1_1018_15_alg».proof.Proof.Gen.KernelIdeal
import proofs.«103005_g2078764171543_cont_8to1_1018_15_alg».proof.Proof.Gen.KernelIdeal.Skeleton
import proofs.«103005_g2078764171543_cont_8to1_1018_15_alg».proof.Proof.Gen.KernelIdeal.Launch
import proofs.«103005_g2078764171543_cont_8to1_1018_15_alg».proof.Proof.Gen.KernelIdeal.Points
import proofs.«103005_g2078764171543_cont_8to1_1018_15_alg».proof.Proof.Gen.KernelIdeal.Frame
import proofs.«103005_g2078764171543_cont_8to1_1018_15_alg».proof.Proof.Gen.ReferenceIdeal
import proofs.«103005_g2078764171543_cont_8to1_1018_15_alg».proof.Proof.Gen.ReferenceIdeal.Run
import proofs.«103005_g2078764171543_cont_8to1_1018_15_alg».proof.Proof.Gen.ReferenceIdeal.Read
import proofs.«103005_g2078764171543_cont_8to1_1018_15_alg».proof.Proof.Gen.Pre_finite_inputs
import proofs.«103005_g2078764171543_cont_8to1_1018_15_alg».proof.Proof.Program
import proofs.«103005_g2078764171543_cont_8to1_1018_15_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped: it terminates and keeps its arguments. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the three arguments both programs end at the linear layer of those arguments. -/
theorem algebraic : Cert.algebraic_KernelIdeal_ReferenceIdeal := by
  intro m ρ m' ρ' _ hagree
  refine ⟨fun c => Cert.Linear.linearOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Linear.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.Linear.reference_is_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
